-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x3 : Shape := ⟨3, ![1, 8192, 3]⟩
abbrev S1x8192x16 : Shape := ⟨3, ![1, 8192, 16]⟩
abbrev S_ : Shape := ⟨0, ![]⟩

class Facts : Prop where
  bcast_S_S1x8192x3 : S_.BroadcastsInDim S1x8192x3 (![] : Fin 0 → Fin S1x8192x3.rank)
  reducesTo_S1x8192x3_S_d0_1_2 : S1x8192x3.ReducesTo [0, 1, 2] S_
  h_S_ : 0 < S_.numel
  bcast_S_S1x8192x16 : S_.BroadcastsInDim S1x8192x16 (![] : Fin 0 → Fin S1x8192x16.rank)
  reducesTo_S1x8192x16_S_d0_1_2 : S1x8192x16.ReducesTo [0, 1, 2] S_

variable [Facts]

def fn {F : FTy → Type} [FloatOps F] (main_arg0 : FVec F S1x8192x3 .f32) (main_arg1 : FVec F S1x8192x3 .f32) (main_arg2 : FVec F S1x8192x16 .f32) : IVec S_ 1 :=
  let main_v0 : FVec F S1x8192x3 .f32 := Host.absf main_arg0
  let main_cst : FVec F S_ .f32 := constant S_ .f32 0x7F800000#32
  let main_v1 : FVec F S1x8192x3 .f32 := broadcastInDim S1x8192x3 ![] bcast_S_S1x8192x3 main_cst
  let main_v2 : IVec S1x8192x3 1 := cmpf .olt main_v0 main_v1
  let main_c : IVec S_ 1 := constantI S_ 1 1#1
  let main_v3 : IVec S_ 1 := (fun x v => Host.reduce IntOp.andi x v reducesTo_S1x8192x3_S_d0_1_2 h_S_) main_v2 main_c
  let main_v4 : FVec F S1x8192x3 .f32 := Host.absf main_arg1
  let main_cst_0 : FVec F S_ .f32 := constant S_ .f32 0x7F800000#32
  let main_v5 : FVec F S1x8192x3 .f32 := broadcastInDim S1x8192x3 ![] bcast_S_S1x8192x3 main_cst_0
  let main_v6 : IVec S1x8192x3 1 := cmpf .olt main_v4 main_v5
  let main_c_1 : IVec S_ 1 := constantI S_ 1 1#1
  let main_v7 : IVec S_ 1 := (fun x v => Host.reduce IntOp.andi x v reducesTo_S1x8192x3_S_d0_1_2 h_S_) main_v6 main_c_1
  let main_v8 : IVec S_ 1 := andi main_v3 main_v7
  let main_v9 : FVec F S1x8192x16 .f32 := Host.absf main_arg2
  let main_cst_2 : FVec F S_ .f32 := constant S_ .f32 0x7F800000#32
  let main_v10 : FVec F S1x8192x16 .f32 := broadcastInDim S1x8192x16 ![] bcast_S_S1x8192x16 main_cst_2
  let main_v11 : IVec S1x8192x16 1 := cmpf .olt main_v9 main_v10
  let main_c_3 : IVec S_ 1 := constantI S_ 1 1#1
  let main_v12 : IVec S_ 1 := (fun x v => Host.reduce IntOp.andi x v reducesTo_S1x8192x16_S_d0_1_2 h_S_) main_v11 main_c_3
  let main_v13 : IVec S_ 1 := andi main_v8 main_v12
  main_v13
-- ==== Kernel.lean ====
abbrev S1x8192x3 : Shape := ⟨3, ![1, 8192, 3]⟩
abbrev S1x8192x16 : Shape := ⟨3, ![1, 8192, 16]⟩
abbrev S8192x3 : Shape := ⟨2, ![8192, 3]⟩
abbrev S8192x16 : Shape := ⟨2, ![8192, 16]⟩
abbrev S3x8192 : Shape := ⟨2, ![3, 8192]⟩
abbrev S128x3 : Shape := ⟨2, ![128, 3]⟩
abbrev S128x16 : Shape := ⟨2, ![128, 16]⟩
abbrev S128x8192 : Shape := ⟨2, ![128, 8192]⟩
abbrev S128x1 : Shape := ⟨2, ![128, 1]⟩
abbrev S1x8192 : Shape := ⟨2, ![1, 8192]⟩
abbrev S128 : Shape := ⟨1, ![128]⟩

abbrev nBuf : Space → Nat
  | .hbm => 10
  | .vmem => 6
  | .smem => 0
  | _ => 0

abbrev bufTy : (tb : Table) → Fin (tcTables nBuf tb) → BufTy
  | .hbm, ⟨0, _⟩ => ⟨S1x8192x3, .f32⟩
  | .hbm, ⟨1, _⟩ => ⟨S1x8192x3, .f32⟩
  | .hbm, ⟨2, _⟩ => ⟨S1x8192x16, .f32⟩
  | .hbm, ⟨3, _⟩ => ⟨S8192x3, .f32⟩
  | .hbm, ⟨4, _⟩ => ⟨S8192x3, .f32⟩
  | .hbm, ⟨5, _⟩ => ⟨S8192x16, .f32⟩
  | .hbm, ⟨6, _⟩ => ⟨S3x8192, .f32⟩
  | .hbm, ⟨7, _⟩ => ⟨S8192x16, .bf16⟩
  | .hbm, ⟨8, _⟩ => ⟨S8192x16, .f32⟩
  | .hbm, ⟨9, _⟩ => ⟨S1x8192x16, .f32⟩
  | .local _ .vmem, ⟨0, _⟩ => ⟨S128x3, .f32⟩
  | .local _ .vmem, ⟨1, _⟩ => ⟨S128x3, .f32⟩
  | .local _ .vmem, ⟨2, _⟩ => ⟨S3x8192, .f32⟩
  | .local _ .vmem, ⟨3, _⟩ => ⟨S8192x16, .bf16⟩
  | .local _ .vmem, ⟨4, _⟩ => ⟨S128x16, .f32⟩
  | .local _ .vmem, ⟨5, _⟩ => ⟨S128x16, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x8192x3_S8192x3 : S1x8192x3.ShapeCasts S8192x3
  shapeCasts_S1x8192x16_S8192x16 : S1x8192x16.ShapeCasts S8192x16
  transposes_S8192x3_S3x8192_1_0 : S8192x3.Transposes [1, 0] S3x8192
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  shapeCasts_S128x3_S128x3 : S128x3.ShapeCasts S128x3
  slices_S128x3_o0_0_S128x1 : S128x3.Slices ![0, 0] S128x1
  inb_S3x8192_S1x8192_0_0 : ∀ a, (![0, 0] : Fin 2 → Nat) a + S1x8192.size a ≤ S3x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  slices_S128x3_o0_1_S128x1 : S128x3.Slices ![0, 1] S128x1
  inb_S3x8192_S1x8192_1_0 : ∀ a, (![1, 0] : Fin 2 → Nat) a + S1x8192.size a ≤ S3x8192.size a
  slices_S128x3_o0_2_S128x1 : S128x3.Slices ![0, 2] S128x1
  inb_S3x8192_S1x8192_2_0 : ∀ a, (![2, 0] : Fin 2 → Nat) a + S1x8192.size a ≤ S3x8192.size a
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  reduces_S128x8192_S128 : S128x8192.Reduces [1] S128
  shapeCasts_S128_S128x1 : S128.ShapeCasts S128x1
  broadcasts_S128x1_S128x16 : S128x1.Broadcasts S128x16
  inb_S128x16_S128x16_0_0 : ∀ a, (![0, 0] : Fin 2 → Nat) a + S128x16.size a ≤ S128x16.size a
  h_S128x16 : 0 < S128x16.numel
  bcast_S8192x16_S1x8192x16_1_2 : S8192x16.BroadcastsInDim S1x8192x16 (![1, 2] : Fin 2 → Fin S1x8192x16.rank)
  dot_S128x8192_S8192x16_S128x16_1_0_0_1_n_n_wf : DotDims.WF S128x8192 S8192x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S8192x3.size a
  hwx0_0 : ∀ i : grid0.Coords, EltTy.bits .f32 = 32 ∨ (Rect.block (s := S8192x3) S128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S8192x16.size a
  hwx0_2 : ∀ i : grid0.Coords, EltTy.bits .bf16 = 32 ∨ (Rect.block (s := S8192x16) S8192x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S8192x16.size a
  hwx0_3 : ∀ i : grid0.Coords, EltTy.bits .f32 = 32 ∨ (Rect.block (s := S8192x16) S128x16.size (cc0_transform_3 i) (hinb0_3 i)).WholeWords (EltTy.packing .f32)

variable [Facts₀]

def dot_S128x8192_S8192x16_S128x16_1_0_0_1_n_n : DotDims S128x8192 S8192x16 S128x16 where
  lhsContracting := [1]
  rhsContracting := [0]
  lhsNonContracting := [0]
  rhsNonContracting := [1]
  lhsBatch := []
  rhsBatch := []
  wf := dot_S128x8192_S8192x16_S128x16_1_0_0_1_n_n_wf

abbrev win0_0 : Pipeline.Window sig grid0 :=
  Pipeline.Window.ofSpec (Memref.whole main_v0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x8192x3 : Shape := ⟨3, ![1, 8192, 3]⟩
abbrev S1x8192x16 : Shape := ⟨3, ![1, 8192, 16]⟩
abbrev S_ : Shape := ⟨0, ![]⟩
abbrev S1x8192 : Shape := ⟨2, ![1, 8192]⟩
abbrev S1x8192x8192 : Shape := ⟨3, ![1, 8192, 8192]⟩
abbrev S1x8192x1 : Shape := ⟨3, ![1, 8192, 1]⟩
abbrev S1x1x8192 : Shape := ⟨3, ![1, 1, 8192]⟩

abbrev nBuf : Space → Nat
  | .hbm => 66
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x8192x3, .f32⟩
  | .hbm, ⟨2, _⟩ => ⟨S1x8192x16, .f32⟩
  | .hbm, ⟨3, _⟩ => ⟨S1x8192x3, .f32⟩
  | .hbm, ⟨4, _⟩ => ⟨S_, .f32⟩
  | .hbm, ⟨5, _⟩ => ⟨S1x8192, .f32⟩
  | .hbm, ⟨6, _⟩ => ⟨S1x8192x3, .f32⟩
  | .hbm, ⟨7, _⟩ => ⟨S_, .f32⟩
  | .hbm, ⟨8, _⟩ => ⟨S1x8192, .f32⟩
  | .hbm, ⟨9, _⟩ => ⟨S1x8192x8192, .f32⟩
  | .hbm, ⟨10, _⟩ => ⟨S1x8192x1, .f32⟩
  | .hbm, ⟨11, _⟩ => ⟨S1x1x8192, .f32⟩
  | .hbm, ⟨12, _⟩ => ⟨S1x8192x8192, .f32⟩
  | .hbm, ⟨13, _⟩ => ⟨S1x8192x8192, .f32⟩
  | .hbm, ⟨14, _⟩ => ⟨S1x8192x8192, .f32⟩
  | .hbm, ⟨15, _⟩ => ⟨S_, .f32⟩
  | .hbm, ⟨16, _⟩ => ⟨S1x8192x8192, .f32⟩
  | .hbm, ⟨17, _⟩ => ⟨S1x8192x8192, .f32⟩
  | .hbm, ⟨18, _⟩ => ⟨S1x8192x8192, .f32⟩
  | .hbm, ⟨19, _⟩ => ⟨S_, .f32⟩
  | .hbm, ⟨20, _⟩ => ⟨S1x8192x8192, .f32⟩
  | .hbm, ⟨21, _⟩ => ⟨S1x8192x8192, .f32⟩
  | .hbm, ⟨22, _⟩ => ⟨S_, .f32⟩
  | .hbm, ⟨23, _⟩ => ⟨S1x8192x16, .f32⟩
  | .hbm, ⟨24, _⟩ => ⟨S_, .f32⟩
  | .hbm, ⟨25, _⟩ => ⟨S1x8192x8192, .f32⟩
  | .hbm, ⟨26, _⟩ => ⟨S1x8192x8192, .f32⟩
  | .hbm, ⟨27, _⟩ => ⟨S1x8192x8192, .f32⟩
  | .hbm, ⟨28, _⟩ => ⟨S_, .f32⟩
  | .hbm, ⟨29, _⟩ => ⟨S1x8192, .f32⟩
  | .hbm, ⟨30, _⟩ => ⟨S1x8192x1, .f32⟩
  | .hbm, ⟨31, _⟩ => ⟨S1x8192x8192, .f32⟩
  | .hbm, ⟨32, _⟩ => ⟨S1x8192x8192, .f32⟩
  | .hbm, ⟨33, _⟩ => ⟨S1x8192x16, .f32⟩
  | .hbm, ⟨34, _⟩ => ⟨S_, .f32⟩
  | .hbm, ⟨35, _⟩ => ⟨S1x8192x16, .f32⟩
  | .hbm, ⟨36, _⟩ => ⟨S1x8192x16, .f32⟩
  | .hbm, ⟨37, _⟩ => ⟨S1x8192x16, .f32⟩
  | .hbm, ⟨38, _⟩ => ⟨S_, .f32⟩
  | .hbm, ⟨39, _⟩ => ⟨S1x8192x8192, .f32⟩
  | .hbm, ⟨40, _⟩ => ⟨S1x8192x8192, .f32⟩
  | .hbm, ⟨41, _⟩ => ⟨S1x8192x8192, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x8192, .f32⟩
  | .hbm, ⟨46, _⟩ => ⟨S1x8192x8192, .f32⟩
  | .hbm, ⟨47, _⟩ => ⟨S1x8192x16, .f32⟩
  | .hbm, ⟨48, _⟩ => ⟨S_, .f32⟩
  | .hbm, ⟨49, _⟩ => ⟨S1x8192x16, .f32⟩
  | .hbm, ⟨50, _⟩ => ⟨S1x8192x16, .f32⟩
  | .hbm, ⟨51, _⟩ => ⟨S1x8192x16, .f32⟩
  | .hbm, ⟨52, _⟩ => ⟨S_, .f32⟩
  | .hbm, ⟨53, _⟩ => ⟨S1x8192x8192, .f32⟩
  | .hbm, ⟨54, _⟩ => ⟨S1x8192x8192, .f32⟩
  | .hbm, ⟨55, _⟩ => ⟨S1x8192x8192, .f32⟩
  | .hbm, ⟨56, _⟩ => ⟨S_, .f32⟩
  | .hbm, ⟨57, _⟩ => ⟨S1x8192, .f32⟩
  | .hbm, ⟨58, _⟩ => ⟨S1x8192x1, .f32⟩
  | .hbm, ⟨59, _⟩ => ⟨S1x8192x8192, .f32⟩
  | .hbm, ⟨60, _⟩ => ⟨S1x8192x8192, .f32⟩
  | .hbm, ⟨61, _⟩ => ⟨S1x8192x16, .f32⟩
  | .hbm, ⟨62, _⟩ => ⟨S_, .f32⟩
  | .hbm, ⟨63, _⟩ => ⟨S1x8192x16, .f32⟩
  | .hbm, ⟨64, _⟩ => ⟨S1x8192x16, .f32⟩
  | .hbm, ⟨65, _⟩ => ⟨S1x8192x16, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  reducesTo_S1x8192x3_S1x8192_d2 : S1x8192x3.ReducesTo [2] S1x8192
  h_S_ : 0 < S_.numel
  bcast_S1x8192_S1x8192x1_0_1 : S1x8192.BroadcastsInDim S1x8192x1 (![0, 1] : Fin 2 → Fin S1x8192x1.rank)
  bcast_S1x8192_S1x1x8192_0_2 : S1x8192.BroadcastsInDim S1x1x8192 (![0, 2] : Fin 2 → Fin S1x1x8192.rank)
  bcast_S1x8192x1_S1x8192x8192_0_1_2 : S1x8192x1.BroadcastsInDim S1x8192x8192 (![0, 1, 2] : Fin 3 → Fin S1x8192x8192.rank)
  bcast_S1x1x8192_S1x8192x8192_0_1_2 : S1x1x8192.BroadcastsInDim S1x8192x8192 (![0, 1, 2] : Fin 3 → Fin S1x8192x8192.rank)
  bcast_S_S1x8192x8192 : S_.BroadcastsInDim S1x8192x8192 (![] : Fin 0 → Fin S1x8192x8192.rank)
  bcast_S_S1x8192x16 : S_.BroadcastsInDim S1x8192x16 (![] : Fin 0 → Fin S1x8192x16.rank)
  reducesTo_S1x8192x8192_S1x8192_d2 : S1x8192x8192.ReducesTo [2] S1x8192
  dot_S1x8192x3_S1x8192x3_S1x8192x8192_2_2_1_1_0_0_wf : DotDims.WF S1x8192x3 S1x8192x3 S1x8192x8192 [2] [2] [1] [1] [0] [0]
  dot_S1x8192x8192_S1x8192x16_S1x8192x16_2_1_1_2_0_0_wf : DotDims.WF S1x8192x8192 S1x8192x16 S1x8192x16 [2] [1] [1] [2] [0] [0]

variable [Facts₀]

def dot_S1x8192x3_S1x8192x3_S1x8192x8192_2_2_1_1_0_0 : DotDims S1x8192x3 S1x8192x3 S1x8192x8192 where
  lhsContracting := [2]
  rhsContracting := [2]
  lhsNonContracting := [1]
  rhsNonContracting := [1]
  lhsBatch := [0]
  rhsBatch := [0]
  wf := dot_S1x8192x3_S1x8192x3_S1x8192x8192_2_2_1_1_0_0_wf
def dot_S1x8192x8192_S1x8192x16_S1x8192x16_2_1_1_2_0_0 : DotDims S1x8192x8192 S1x8192x16 S1x8192x16 where
  lhsContracting := [2]
  rhsContracting := [1]
  lhsNonContracting := [1]
  rhsNonContracting := [2]
  lhsBatch := [0]
  rhsBatch := [0]
  wf := dot_S1x8192x8192_S1x8192x16_S1x8192x16_2_1_1_2_0_0_wf

class Facts : Prop extends Facts₀ where

variable [Facts]
-- ==== Proof.GaussReal.lean ====
/-
  The algebra over the reals that joins the two programs.

  Fix one query point `x : Fin 3 → ℝ`, the neighbours `y : M → Fin 3 → ℝ` and one feature column `f : M → ℝ`.
  With `d m = ‖x - y m‖²` and the Gaussian weights `g_c m = exp (c · d m)`, both programs compute
      0.3 · (∑ g₋₂₀₀ · f) / ∑ g₋₂₀₀  +  0.3 · (∑ g₋₅₀ · f) / ∑ g₋₅₀  +  0.4 · (∑ g₋₁₂.₅ · f) / ∑ g₋₁₂.₅ .
  One of them takes `d` as the sum of the three squared differences, computes `e = exp (-12.5 · d)` once and gets the
  other two weights by squaring (`e⁴ = exp (-50 · d)`, `e¹⁶ = exp (-200 · d)`), and divides each weighted feature sum by
  the weight sum at the end; the other takes `d` as `max (‖x‖² + ‖y‖² - 2 x·y) 0`, exponentiates three times,
  normalises the weights first and sums afterwards, and adds the three terms in the opposite order.
-/
import Idealize.ShloMosaic.PureOps.Ideal

noncomputable section

namespace Cert.Gauss

open Finset

variable {M : Type} [Fintype M]

/-- The squared distance, accumulated coordinate by coordinate from zero. -/
def sqDist (x y : Fin 3 → ℝ) : ℝ :=
  ((0 + (x 0 - y 0) * (x 0 - y 0)) + (x 1 - y 1) * (x 1 - y 1)) + (x 2 - y 2) * (x 2 - y 2)

/-- The squared distance by the expansion `‖x‖² + ‖y‖² - 2 x·y`, clamped at zero. -/
def sqDistExpanded (x y : Fin 3 → ℝ) : ℝ :=
  max (((0 + ∑ k, x k * x k) + (0 + ∑ k, y k * y k)) - 2 * ∑ k, x k * y k) 0

/-- The expansion is the sum of squares, which is never negative, so the clamp does nothing. -/
theorem sqDistExpanded_eq (x y : Fin 3 → ℝ) : sqDistExpanded x y = sqDist x y := by
  unfold sqDistExpanded sqDist
  simp only [Fin.sum_univ_three]
  have h : (0 + (x 0 * x 0 + x 1 * x 1 + x 2 * x 2) + (0 + (y 0 * y 0 + y 1 * y 1 + y 2 * y 2))
      - 2 * (x 0 * y 0 + x 1 * y 1 + x 2 * y 2))
      = 0 + (x 0 - y 0) * (x 0 - y 0) + (x 1 - y 1) * (x 1 - y 1) + (x 2 - y 2) * (x 2 - y 2) := by ring
  rw [h]
  exact max_eq_left (by nlinarith [mul_self_nonneg (x 0 - y 0), mul_self_nonneg (x 1 - y 1), mul_self_nonneg (x 2 - y 2)])

/-- The widest Gaussian weight, `exp (-12.5 · d)`. -/
def wide (x y : Fin 3 → ℝ) : ℝ := Real.exp (sqDist x y * (-12.5))
/-- Its fourth power, by two squarings. -/
def mid (x y : Fin 3 → ℝ) : ℝ := (wide x y * wide x y) * (wide x y * wide x y)
/-- Its sixteenth power, by two more. -/
def narrow (x y : Fin 3 → ℝ) : ℝ := ((mid x y * mid x y) * (mid x y * mid x y))

theorem wide_pos (x y : Fin 3 → ℝ) : 0 < wide x y := Real.exp_pos _
theorem mid_pos (x y : Fin 3 → ℝ) : 0 < mid x y := by unfold mid; have := wide_pos x y; positivity
theorem narrow_pos (x y : Fin 3 → ℝ) : 0 < narrow x y := by unfold narrow; have := mid_pos x y; positivity

/-- Squaring twice multiplies the exponent by four. -/
theorem exp_mid (x y : Fin 3 → ℝ) : Real.exp (sqDist x y * (-50)) = mid x y := by
  unfold mid wide
  simp only [← Real.exp_add]
  congr 1; ring

/-- Squaring four times multiplies the exponent by sixteen. -/
theorem exp_narrow (x y : Fin 3 → ℝ) : Real.exp (sqDist x y * (-200)) = narrow x y := by
  unfold narrow mid wide
  simp only [← Real.exp_add]
  congr 1; ring

/-- One term as the first program has it: the weighted feature sum, scaled, divided by the weight sum. -/
def termLate (w : ℝ) (g f : M → ℝ) : ℝ := (w * ∑ m, g m * f m) / ∑ m, g m

/-- One term as the second program has it: weights normalised first, then summed against the features, then scaled. -/
def termEarly (w : ℝ) (g f : M → ℝ) : ℝ := w * ∑ m, (g m / (0 + ∑ m', g m')) * f m

/-- Dividing every weight by the weight sum before summing is dividing the sum afterwards. -/
theorem termEarly_eq (w : ℝ) (g f : M → ℝ) : termEarly w g f = termLate w g f := by
  unfold termEarly termLate
  rw [zero_add, mul_div_assoc, Finset.sum_div]
  congr 1
  exact Finset.sum_congr rfl fun m _ => div_mul_eq_mul_div _ _ _

/-- The result at one query point and one feature column, as the first program computes it. -/
def bySquaring (w3 w4 : ℝ) (x : Fin 3 → ℝ) (y : M → Fin 3 → ℝ) (f : M → ℝ) : ℝ :=
  ((0 + termLate w4 (fun m => wide x (y m)) f) + termLate w3 (fun m => mid x (y m)) f)
    + termLate w3 (fun m => narrow x (y m)) f

/-- The same as the second program computes it. -/
def byThreeExps (w3 w4 : ℝ) (x : Fin 3 → ℝ) (y : M → Fin 3 → ℝ) (f : M → ℝ) : ℝ :=
  ((0 + termEarly w3 (fun m => Real.exp (sqDistExpanded x (y m) * (-200))) f)
      + termEarly w3 (fun m => Real.exp (sqDistExpanded x (y m) * (-50))) f)
    + termEarly w4 (fun m => Real.exp (sqDistExpanded x (y m) * (-12.5))) f

/-- The two are one number. -/
theorem byThreeExps_eq (w3 w4 : ℝ) (x : Fin 3 → ℝ) (y : M → Fin 3 → ℝ) (f : M → ℝ) :
    byThreeExps w3 w4 x y f = bySquaring w3 w4 x y f := by
  unfold byThreeExps bySquaring
  simp only [sqDistExpanded_eq, exp_narrow, exp_mid, termEarly_eq]
  have : (fun m => Real.exp (sqDist x (y m) * (-12.5))) = fun m => wide x (y m) := rfl
  rw [this]
  ring

end Cert.Gauss

end
-- ==== Proof.GaussLift.lean ====
/-
  The same two computations written over the extended reals, operation for operation as the two programs perform
  them, and the fact that on finite inputs each is the coercion of its real counterpart: every intermediate value is
  a real (a difference, product or finite sum of reals; an exponential of a real; a quotient by a sum of positive
  exponentials, which is not zero), so the extended-real operations are the real ones.
-/
import Idealize.ShloMosaic.PureOps.Ideal
import Idealize.ShloMosaic.PureOps.Ideal.Laws
import proofs.«127882_j66322884985175_2_alg».proof.Proof.GaussReal

noncomputable section

namespace Cert.Gauss

open Finset Idealize.ShloMosaic

variable {M : Type} [Fintype M]

/-- The coercion of a finite sum of reals is the sum of the coercions. -/
theorem coe_sum (g : M → ℝ) : ((∑ m, g m : ℝ) : EReal) = ∑ m, (g m : EReal) := by
  classical
  induction (Finset.univ : Finset M) using Finset.induction_on with
  | empty => simp
  | insert a s ha ih => rw [Finset.sum_insert ha, Finset.sum_insert ha, EReal.coe_add, ih]

/-- A quotient of reals by a nonzero real, taken on the extended reals. -/
theorem div_coe_coe (a b : ℝ) (hb : b ≠ 0) : Ideal.div (a : EReal) (b : EReal) = ((a / b : ℝ) : EReal) := by
  rw [Ideal.div_coe hb, ← EReal.coe_mul, mul_one_div]

/-! ## The constants the two programs spell -/

theorem c_wide : Ideal.ofBits .f32 0xC1480000#32 = ((-12.5 : ℝ) : EReal) := by
  simp [Ideal.ofBits, Ideal.ieee, -EReal.coe_mul]; norm_num
theorem c_mid : Ideal.ofBits .f32 0xC2480000#32 = ((-50 : ℝ) : EReal) := by
  simp [Ideal.ofBits, Ideal.ieee, -EReal.coe_mul]; norm_num
theorem c_narrow : Ideal.ofBits .f32 0xC3480000#32 = ((-200 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- The real the pattern of `f32 0.3` denotes. -/
def w3 : ℝ := 10066330 / 33554432
/-- The real the pattern of `f32 0.4` denotes. -/
def w4 : ℝ := 13421773 / 33554432

theorem c_w3 : Ideal.ofBits .f32 0x3E99999A#32 = ((w3 : ℝ) : EReal) := by
  unfold w3
  simp [Ideal.ofBits, Ideal.ieee, -EReal.coe_mul]; norm_num
theorem c_w4 : Ideal.ofBits .f32 0x3ECCCCCD#32 = ((w4 : ℝ) : EReal) := by
  unfold w4
  simp [Ideal.ofBits, Ideal.ieee, -EReal.coe_mul]; norm_num

/-! ## The first program's arithmetic on the extended reals -/

def sqDistE (x y : Fin 3 → EReal) : EReal :=
  ((0 + (x 0 - y 0) * (x 0 - y 0)) + (x 1 - y 1) * (x 1 - y 1)) + (x 2 - y 2) * (x 2 - y 2)

def wideE (c : EReal) (x y : Fin 3 → EReal) : EReal := Ideal.exp (sqDistE x y * c)
def midE (c : EReal) (x y : Fin 3 → EReal) : EReal := (wideE c x y * wideE c x y) * (wideE c x y * wideE c x y)
def narrowE (c : EReal) (x y : Fin 3 → EReal) : EReal := (midE c x y * midE c x y) * (midE c x y * midE c x y)

def termLateE (w : EReal) (g f : M → EReal) : EReal := Ideal.div (w * ∑ m, g m * f m) (∑ m, g m)

def bySquaringE (c w3 w4 : EReal) (x : Fin 3 → EReal) (y : M → Fin 3 → EReal) (f : M → EReal) : EReal :=
  ((0 + termLateE w4 (fun m => wideE c x (y m)) f) + termLateE w3 (fun m => midE c x (y m)) f)
    + termLateE w3 (fun m => narrowE c x (y m)) f

/-! ## The second program's arithmetic on the extended reals -/

def sqDistExpandedE (two : EReal) (x y : Fin 3 → EReal) : EReal :=
  max (((0 + ∑ k, x k * x k) + (0 + ∑ k, y k * y k)) - two * ∑ k, x k * y k) 0

def termEarlyE (w : EReal) (g f : M → EReal) : EReal := w * ∑ m, Ideal.div (g m) (0 + ∑ m', g m') * f m

def byThreeExpsE (cn cm cw two w3 w4 : EReal) (x : Fin 3 → EReal) (y : M → Fin 3 → EReal) (f : M → EReal) : EReal :=
  ((0 + termEarlyE w3 (fun m => Ideal.exp (sqDistExpandedE two x (y m) * cn)) f)
      + termEarlyE w3 (fun m => Ideal.exp (sqDistExpandedE two x (y m) * cm)) f)
    + termEarlyE w4 (fun m => Ideal.exp (sqDistExpandedE two x (y m) * cw)) f

/-! ## On reals they are the real computations -/

theorem sqDistE_coe (x y : Fin 3 → ℝ) : sqDistE (fun k => (x k : EReal)) (fun k => (y k : EReal)) = ((sqDist x y : ℝ) : EReal) := by
  unfold sqDistE sqDist
  push_cast
  rfl

theorem wideE_coe (x y : Fin 3 → ℝ) :
    wideE ((-12.5 : ℝ) : EReal) (fun k => (x k : EReal)) (fun k => (y k : EReal)) = ((wide x y : ℝ) : EReal) := by
  unfold wideE wide
  rw [sqDistE_coe, ← EReal.coe_mul, Ideal.exp_coe]

theorem midE_coe (x y : Fin 3 → ℝ) :
    midE ((-12.5 : ℝ) : EReal) (fun k => (x k : EReal)) (fun k => (y k : EReal)) = ((mid x y : ℝ) : EReal) := by
  unfold midE mid
  rw [wideE_coe]
  push_cast
  rfl

theorem narrowE_coe (x y : Fin 3 → ℝ) :
    narrowE ((-12.5 : ℝ) : EReal) (fun k => (x k : EReal)) (fun k => (y k : EReal)) = ((narrow x y : ℝ) : EReal) := by
  unfold narrowE narrow
  rw [midE_coe]
  push_cast
  rfl

theorem termLateE_coe [Nonempty M] (w : ℝ) (g f : M → ℝ) (hg : ∀ m, 0 < g m) :
    termLateE (w : EReal) (fun m => (g m : EReal)) (fun m => (f m : EReal)) = ((termLate w g f : ℝ) : EReal) := by
  unfold termLateE termLate
  simp only [← EReal.coe_mul, ← coe_sum]
  exact div_coe_coe _ _ (Finset.sum_pos (fun m _ => hg m) Finset.univ_nonempty).ne'

theorem bySquaringE_coe [Nonempty M] (a b : ℝ) (x : Fin 3 → ℝ) (y : M → Fin 3 → ℝ) (f : M → ℝ) :
    bySquaringE ((-12.5 : ℝ) : EReal) (a : EReal) (b : EReal) (fun k => (x k : EReal)) (fun m k => (y m k : EReal)) (fun m => (f m : EReal))
      = ((bySquaring a b x y f : ℝ) : EReal) := by
  unfold bySquaringE bySquaring
  simp only [wideE_coe, midE_coe, narrowE_coe]
  rw [termLateE_coe b _ f (fun m => wide_pos x (y m)), termLateE_coe a _ f (fun m => mid_pos x (y m)),
    termLateE_coe a _ f (fun m => narrow_pos x (y m))]
  push_cast
  rfl

theorem sqDistExpandedE_coe (x y : Fin 3 → ℝ) :
    sqDistExpandedE ((2 : ℝ) : EReal) (fun k => (x k : EReal)) (fun k => (y k : EReal)) = ((sqDistExpanded x y : ℝ) : EReal) := by
  unfold sqDistExpandedE sqDistExpanded
  simp only [← EReal.coe_mul, ← coe_sum, zero_add, ← EReal.coe_add, ← EReal.coe_sub]
  rw [← EReal.coe_zero]
  exact (EReal.coe_strictMono.monotone.map_max).symm

theorem termEarlyE_coe [Nonempty M] (w : ℝ) (g f : M → ℝ) (hg : ∀ m, 0 < g m) :
    termEarlyE (w : EReal) (fun m => (g m : EReal)) (fun m => (f m : EReal)) = ((termEarly w g f : ℝ) : EReal) := by
  unfold termEarlyE termEarly
  have hS : (∑ m', g m') ≠ 0 := (Finset.sum_pos (fun m _ => hg m) Finset.univ_nonempty).ne'
  simp only [zero_add, ← coe_sum]
  simp only [div_coe_coe _ _ hS, ← EReal.coe_mul, ← coe_sum]

theorem byThreeExpsE_coe [Nonempty M] (a b : ℝ) (x : Fin 3 → ℝ) (y : M → Fin 3 → ℝ) (f : M → ℝ) :
    byThreeExpsE ((-200 : ℝ) : EReal) ((-50 : ℝ) : EReal) ((-12.5 : ℝ) : EReal) ((2 : ℝ) : EReal) (a : EReal) (b : EReal)
        (fun k => (x k : EReal)) (fun m k => (y m k : EReal)) (fun m => (f m : EReal))
      = ((byThreeExps a b x y f : ℝ) : EReal) := by
  unfold byThreeExpsE byThreeExps
  simp only [sqDistExpandedE_coe, ← EReal.coe_mul, Ideal.exp_coe]
  rw [termEarlyE_coe a _ f (fun m => Real.exp_pos _), termEarlyE_coe a _ f (fun m => Real.exp_pos _),
    termEarlyE_coe b _ f (fun m => Real.exp_pos _)]
  push_cast
  rfl

/-- On finite inputs the two extended-real computations agree. -/
theorem byThreeExpsE_eq [Nonempty M] (a b : ℝ) (x : Fin 3 → ℝ) (y : M → Fin 3 → ℝ) (f : M → ℝ) :
    byThreeExpsE ((-200 : ℝ) : EReal) ((-50 : ℝ) : EReal) ((-12.5 : ℝ) : EReal) ((2 : ℝ) : EReal) (a : EReal) (b : EReal)
        (fun k => (x k : EReal)) (fun m k => (y m k : EReal)) (fun m => (f m : EReal))
      = bySquaringE ((-12.5 : ℝ) : EReal) (a : EReal) (b : EReal) (fun k => (x k : EReal)) (fun m k => (y m k : EReal)) (fun m => (f m : EReal)) := by
  rw [byThreeExpsE_coe, bySquaringE_coe, byThreeExps_eq]

end Cert.Gauss

end
-- ==== Proof.RefRead.lean ====
/-
  The reference program read at one output index. Its result at query point `n` and feature column `c` is the
  three-exponential form of `Cert.Gauss`: the squared distance to neighbour `m` by the expansion
  `‖x‖² + ‖y‖² - 2 x·y` clamped at zero, three Gaussian weights, each normalised over the neighbours and summed
  against the feature column.
-/
import proofs.«127882_j66322884985175_2_alg».proof.Proof.Gen.ReferenceIdeal.Read
import proofs.«127882_j66322884985175_2_alg».proof.Proof.GaussLift
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Gauss

variable (x0 x1 : (⟨S1x8192x3, .f32⟩ : BufTy).Contents (Elt Ideal)) (x2 : (⟨S1x8192x16, .f32⟩ : BufTy).Contents (Elt Ideal))

/-! ## Where each operation reads its operands -/

theorem ix_x2 (n : Fin 8192) (m : Fin 8192) (k : Fin 3) :
    idx_main_v1 (idx_main_v5 (idx_main_v7 (ix3 (0 : Fin 1) n m))) k = ix3 (0 : Fin 1) n k :=
  funext fun a => Fin.ext (by match a with | ⟨0, _⟩ => rfl | ⟨1, _⟩ => rfl | ⟨2, _⟩ => rfl)
theorem ix_y2 (n : Fin 8192) (m : Fin 8192) (k : Fin 3) :
    idx_main_v3 (idx_main_v6 (idx_main_v8 (ix3 (0 : Fin 1) n m))) k = ix3 (0 : Fin 1) m k :=
  funext fun a => Fin.ext (by match a with | ⟨0, _⟩ => rfl | ⟨1, _⟩ => rfl | ⟨2, _⟩ => rfl)
theorem ix_xyl (n : Fin 8192) (m : Fin 8192) (k : Fin 3) :
    lidx_main_v4 (ix3 (0 : Fin 1) n m) k = ix3 (0 : Fin 1) n k :=
  funext fun a => Fin.ext (by match a with | ⟨0, _⟩ => rfl | ⟨1, _⟩ => rfl | ⟨2, _⟩ => rfl)
theorem ix_xyr (n : Fin 8192) (m : Fin 8192) (k : Fin 3) :
    ridx_main_v4 (ix3 (0 : Fin 1) n m) k = ix3 (0 : Fin 1) m k :=
  funext fun a => Fin.ext (by match a with | ⟨0, _⟩ => rfl | ⟨1, _⟩ => rfl | ⟨2, _⟩ => rfl)

/-- The clamped expansion of the squared distance between query point `n` and neighbour `m`. -/
theorem dist_apply (n m : Fin 8192) :
    val_main_v14 (F := Ideal) x0 x1 (ix3 (0 : Fin 1) n m)
      = sqDistExpandedE (Ideal.ofBits .f32 0x40000000#32) (fun k => x0 (ix3 (0 : Fin 1) n k)) (fun k => x1 (ix3 (0 : Fin 1) m k)) := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [val_main_v0_apply, val_main_v2_apply, val_main_cst_apply, val_main_cst_0_apply, val_main_cst_1_apply,
    val_main_cst_2_apply, ix_x2, ix_y2, ix_xyl, ix_xyr, Ideal.ofBits_def, Ideal.mulf_def, Ideal.addf_def, Ideal.subf_def,
    Ideal.maximumf_def, Ideal.ofBits_zero_f32]
  rfl

/-! ## One normalised term -/

theorem ix_s19 (n m m' : Fin 8192) :
    idx_main_v19 (idx_main_v20 (idx_main_v21 (ix3 (0 : Fin 1) n m))) m' = ix3 (0 : Fin 1) n m' :=
  funext fun a => Fin.ext (by match a with | ⟨0, _⟩ => rfl | ⟨1, _⟩ => rfl | ⟨2, _⟩ => rfl)
theorem ix_s30 (n m m' : Fin 8192) :
    idx_main_v30 (idx_main_v31 (idx_main_v32 (ix3 (0 : Fin 1) n m))) m' = ix3 (0 : Fin 1) n m' :=
  funext fun a => Fin.ext (by match a with | ⟨0, _⟩ => rfl | ⟨1, _⟩ => rfl | ⟨2, _⟩ => rfl)
theorem ix_s41 (n m m' : Fin 8192) :
    idx_main_v41 (idx_main_v42 (idx_main_v43 (ix3 (0 : Fin 1) n m))) m' = ix3 (0 : Fin 1) n m' :=
  funext fun a => Fin.ext (by match a with | ⟨0, _⟩ => rfl | ⟨1, _⟩ => rfl | ⟨2, _⟩ => rfl)
theorem ix_l23 (n : Fin 8192) (c : Fin 16) (m : Fin 8192) :
    lidx_main_v23 (ix3 (0 : Fin 1) n c) m = ix3 (0 : Fin 1) n m :=
  funext fun a => Fin.ext (by match a with | ⟨0, _⟩ => rfl | ⟨1, _⟩ => rfl | ⟨2, _⟩ => rfl)
theorem ix_r23 (n : Fin 8192) (c : Fin 16) (m : Fin 8192) :
    ridx_main_v23 (ix3 (0 : Fin 1) n c) m = ix3 (0 : Fin 1) m c :=
  funext fun a => Fin.ext (by match a with | ⟨0, _⟩ => rfl | ⟨1, _⟩ => rfl | ⟨2, _⟩ => rfl)
theorem ix_l34 (n : Fin 8192) (c : Fin 16) (m : Fin 8192) :
    lidx_main_v34 (ix3 (0 : Fin 1) n c) m = ix3 (0 : Fin 1) n m :=
  funext fun a => Fin.ext (by match a with | ⟨0, _⟩ => rfl | ⟨1, _⟩ => rfl | ⟨2, _⟩ => rfl)
theorem ix_r34 (n : Fin 8192) (c : Fin 16) (m : Fin 8192) :
    ridx_main_v34 (ix3 (0 : Fin 1) n c) m = ix3 (0 : Fin 1) m c :=
  funext fun a => Fin.ext (by match a with | ⟨0, _⟩ => rfl | ⟨1, _⟩ => rfl | ⟨2, _⟩ => rfl)
theorem ix_l45 (n : Fin 8192) (c : Fin 16) (m : Fin 8192) :
    lidx_main_v45 (ix3 (0 : Fin 1) n c) m = ix3 (0 : Fin 1) n m :=
  funext fun a => Fin.ext (by match a with | ⟨0, _⟩ => rfl | ⟨1, _⟩ => rfl | ⟨2, _⟩ => rfl)
theorem ix_r45 (n : Fin 8192) (c : Fin 16) (m : Fin 8192) :
    ridx_main_v45 (ix3 (0 : Fin 1) n c) m = ix3 (0 : Fin 1) m c :=
  funext fun a => Fin.ext (by match a with | ⟨0, _⟩ => rfl | ⟨1, _⟩ => rfl | ⟨2, _⟩ => rfl)

/-- The narrow weight, normalised over the neighbours, against feature column `c`. -/
theorem narrow_apply (n : Fin 8192) (c : Fin 16) :
    val_main_v23 (F := Ideal) x0 x1 x2 (ix3 (0 : Fin 1) n c)
      = ∑ m : Fin 8192, Ideal.div (Ideal.exp (val_main_v14 (F := Ideal) x0 x1 (ix3 (0 : Fin 1) n m) * Ideal.ofBits .f32 0xC3480000#32))
          (0 + ∑ m' : Fin 8192, Ideal.exp (val_main_v14 (F := Ideal) x0 x1 (ix3 (0 : Fin 1) n m') * Ideal.ofBits .f32 0xC3480000#32))
          * x2 (ix3 (0 : Fin 1) m c) := by
  rw [val_main_v23_apply]
  simp only [ix_l23, ix_r23, val_main_v22_apply, val_main_v21_apply, val_main_v20_apply, val_main_v19_apply, ix_s19,
    val_main_v18_apply, val_main_v17_apply, val_main_v16_apply, val_main_cst_4_apply, val_main_cst_5_apply,
    Ideal.ofBits_def, Ideal.mulf_def, Ideal.hostDivf_def, Ideal.hostUnary_exp_def, Ideal.ofBits_zero_f32]

/-- The middle weight likewise. -/
theorem mid_apply (n : Fin 8192) (c : Fin 16) :
    val_main_v34 (F := Ideal) x0 x1 x2 (ix3 (0 : Fin 1) n c)
      = ∑ m : Fin 8192, Ideal.div (Ideal.exp (val_main_v14 (F := Ideal) x0 x1 (ix3 (0 : Fin 1) n m) * Ideal.ofBits .f32 0xC2480000#32))
          (0 + ∑ m' : Fin 8192, Ideal.exp (val_main_v14 (F := Ideal) x0 x1 (ix3 (0 : Fin 1) n m') * Ideal.ofBits .f32 0xC2480000#32))
          * x2 (ix3 (0 : Fin 1) m c) := by
  rw [val_main_v34_apply]
  simp only [ix_l34, ix_r34, val_main_v33_apply, val_main_v32_apply, val_main_v31_apply, val_main_v30_apply, ix_s30,
    val_main_v29_apply, val_main_v28_apply, val_main_v27_apply, val_main_cst_7_apply, val_main_cst_8_apply,
    Ideal.ofBits_def, Ideal.mulf_def, Ideal.hostDivf_def, Ideal.hostUnary_exp_def, Ideal.ofBits_zero_f32]

/-- The wide weight likewise. -/
theorem wide_apply (n : Fin 8192) (c : Fin 16) :
    val_main_v45 (F := Ideal) x0 x1 x2 (ix3 (0 : Fin 1) n c)
      = ∑ m : Fin 8192, Ideal.div (Ideal.exp (val_main_v14 (F := Ideal) x0 x1 (ix3 (0 : Fin 1) n m) * Ideal.ofBits .f32 0xC1480000#32))
          (0 + ∑ m' : Fin 8192, Ideal.exp (val_main_v14 (F := Ideal) x0 x1 (ix3 (0 : Fin 1) n m') * Ideal.ofBits .f32 0xC1480000#32))
          * x2 (ix3 (0 : Fin 1) m c) := by
  rw [val_main_v45_apply]
  simp only [ix_l45, ix_r45, val_main_v44_apply, val_main_v43_apply, val_main_v42_apply, val_main_v41_apply, ix_s41,
    val_main_v40_apply, val_main_v39_apply, val_main_v38_apply, val_main_cst_10_apply, val_main_cst_11_apply,
    Ideal.ofBits_def, Ideal.mulf_def, Ideal.hostDivf_def, Ideal.hostUnary_exp_def, Ideal.ofBits_zero_f32]

/-! ## The result -/

/-- The reference's result at `(0, n, c)` is the three-exponential form of row `n` of the first argument, the
    rows of the second and column `c` of the third. -/
theorem result_apply (n : Fin 8192) (c : Fin 16) :
    val_main_v48 (F := Ideal) x0 x1 x2 (ix3 (0 : Fin 1) n c)
      = byThreeExpsE (Ideal.ofBits .f32 0xC3480000#32) (Ideal.ofBits .f32 0xC2480000#32) (Ideal.ofBits .f32 0xC1480000#32)
          (Ideal.ofBits .f32 0x40000000#32) (Ideal.ofBits .f32 0x3E99999A#32) (Ideal.ofBits .f32 0x3ECCCCCD#32)
          (fun k => x0 (ix3 (0 : Fin 1) n k)) (fun m k => x1 (ix3 (0 : Fin 1) m k)) (fun m => x2 (ix3 (0 : Fin 1) m c)) := by
  rw [val_main_v48_apply, val_main_v47_apply, val_main_v37_apply, val_main_v36_apply, val_main_v26_apply, val_main_v25_apply,
    val_main_v15_apply, val_main_v24_apply, val_main_v35_apply, val_main_v46_apply, narrow_apply, mid_apply, wide_apply]
  simp only [dist_apply, val_main_cst_3_apply, val_main_cst_6_apply, val_main_cst_9_apply, val_main_cst_12_apply,
    Ideal.ofBits_def, Ideal.mulf_def, Ideal.addf_def, Ideal.ofBits_zero_f32]
  rfl

end Cert.ReferenceIdeal.RefValue

end
-- ==== Proof.KernelBody.lean ====
/-
  The kernel body's arithmetic read at one index of its output block. For a block of 128 query points `X`, the three
  coordinate rows `Ya`, `Yb`, `Yc` of all 8192 neighbours and the feature matrix `Fe`, the value stored at `(p, q)` is
  the squaring form of `Cert.Gauss` for query point `p` and feature column `q`: a lane sum is a sum over the
  neighbours, a matrix product into a zero accumulator is a sum of products over the neighbours, a column broadcast
  along the lanes reads its one entry, and a change of float format is the identity.
-/
import proofs.«127882_j66322884985175_2_alg».proof.Proof.Gen.KernelIdeal.Skeleton
import proofs.«127882_j66322884985175_2_alg».proof.Proof.GaussLift
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Gauss

/-! ## Layout operations of small shapes read at an index -/

/-- A column `[a, 1]` broadcast along the lanes to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector's entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem exp_apply {s : Shape} {φ : FTy} (v : FVec Ideal s φ) (i : s.Idx) : exp v i = Ideal.exp (v i) := rfl

theorem scalar_ofBits (φ : FTy) (b : BitVec φ.bits) : Scalar.ofBits (F := Ideal) φ b = Ideal.ofBits φ b := rfl

variable (X : Vec Ideal S128x3 .f32) (Ya Yb Yc : Vec Ideal S1x8192 .f32) (Fe : Vec Ideal S8192x16 .bf16)

/-- Coordinate `k` of the query block, as a column broadcast along the lanes, reads `X (p, k)`. -/
theorem xcol_apply (o : Nat) (k : Fin 3) (hk : k.val = o) (hs : S128x3.Slices ![0, o] S128x1) (p : Fin 128) (m : Fin 8192) :
    broadcastTo S128x8192 (extractStridedSlice S128x1 ![0, o] (shapeCast S128x3 X shapeCasts_S128x3_S128x3) hs)
        broadcasts_S128x1_S128x8192 (ix2 p m) = X (ix2 p k) := by
  rw [broadcastTo_a1_ab_apply, slice2_axis1_apply o _ hs p (0 : Fin 1) k (by rw [hk]; rfl), shapeCast_self]

/-- One coordinate row of the neighbours, broadcast along the sublanes, reads the row's entry `m`. -/
theorem yrow_apply (Yr : Vec Ideal S1x8192 .f32) (p : Fin 128) (m : Fin 8192) :
    broadcastTo S128x8192 (shapeCast S1x8192 Yr shapeCasts_S1x8192_S1x8192) broadcasts_S1x8192_S128x8192 (ix2 p m)
      = Yr (ix2 (0 : Fin 1) m) := by
  rw [broadcastTo_1b_ab_apply, shapeCast_self]

/-- The widest weight of query point `p` against neighbour `m`. -/
theorem pay2_apply (p : Fin 128) (m : Fin 8192) :
    k0_pay2 (F := Ideal) X Ya Yb Yc (ix2 p m)
      = wideE (Ideal.ofBits .f32 0xC1480000#32) (fun k => X (ix2 p k))
          ![Ya (ix2 (0 : Fin 1) m), Yb (ix2 (0 : Fin 1) m), Yc (ix2 (0 : Fin 1) m)] := by
  unfold k0_pay2
  simp only [exp_apply, mulf_apply, addf_apply, subf_apply, broadcast_apply, scalar_ofBits,
    xcol_apply X 0 0 rfl, xcol_apply X 1 1 rfl, xcol_apply X 2 2 rfl, Ideal.ofBits_zero_f32]
  rw [yrow_apply Ya p m, yrow_apply Yb p m, yrow_apply Yc p m]
  rfl

/-- Its fourth power. -/
theorem pay3_apply (p : Fin 128) (m : Fin 8192) :
    k0_pay3 (F := Ideal) X Ya Yb Yc (ix2 p m)
      = midE (Ideal.ofBits .f32 0xC1480000#32) (fun k => X (ix2 p k))
          ![Ya (ix2 (0 : Fin 1) m), Yb (ix2 (0 : Fin 1) m), Yc (ix2 (0 : Fin 1) m)] := by
  unfold k0_pay3
  simp only [mulf_apply, pay2_apply]
  rfl

/-- Its sixteenth power. -/
theorem pay4_apply (p : Fin 128) (m : Fin 8192) :
    k0_pay4 (F := Ideal) X Ya Yb Yc (ix2 p m)
      = narrowE (Ideal.ofBits .f32 0xC1480000#32) (fun k => X (ix2 p k))
          ![Ya (ix2 (0 : Fin 1) m), Yb (ix2 (0 : Fin 1) m), Yc (ix2 (0 : Fin 1) m)] := by
  unfold k0_pay4
  simp only [mulf_apply, pay3_apply]
  rfl

/-- A lane sum of a `[128, 8192]` vector, at row `p`, is the sum over the 8192 lanes. -/
theorem rowSum_apply (E : FVec Ideal S128x8192 .f32) (p : Fin 128) :
    multiReduction .add [1] S128 E 0x00000000#32 reduces_S128x8192_S128 (.inl rfl) rfl (ix1 p) = ∑ m : Fin 8192, E (ix2 p m) :=
  (Ideal.multiReduction_add_single E _ reduces_S128x8192_S128 _ _ (ix1 p)).trans
    (Finset.sum_congr rfl fun m _ => congrArg E (funext fun a => Fin.ext (by match a with | ⟨0, _⟩ => rfl | ⟨1, _⟩ => rfl)))

/-- The weight sum of row `p`, as the column the body divides by, read at any feature column. -/
theorem den_apply (E : FVec Ideal S128x8192 .f32) (p : Fin 128) (q : Fin 16) :
    broadcastTo S128x16 (shapeCast S128x1 (multiReduction .add [1] S128 E 0x00000000#32 reduces_S128x8192_S128 (.inl rfl) rfl)
        shapeCasts_S128_S128x1) broadcasts_S128x1_S128x16 (ix2 p q) = ∑ m : Fin 8192, E (ix2 p m) := by
  rw [broadcastTo_a1_ab_apply, shapeCast_a_a1_apply]
  exact rowSum_apply E p

/-- The operands' indices of the contraction at output index `j` and contraction index `r`, coordinate by coordinate. -/
theorem lhs_coord0 (j : S128x16.Idx) (r : dot_S128x8192_S8192x16_S128x16_1_0_0_1_n_n.contr.Idx) :
    (dot_S128x8192_S8192x16_S128x16_1_0_0_1_n_n.lhsIdx j r 0).val = (j 0).val := by
  unfold DotDims.lhsIdx
  rw [dif_neg (show ¬(0 : Fin S128x8192.rank) ∈ dot_S128x8192_S8192x16_S128x16_1_0_0_1_n_n.lhsBatch by decide),
    dif_pos (show (0 : Fin S128x8192.rank) ∈ dot_S128x8192_S8192x16_S128x16_1_0_0_1_n_n.lhsNonContracting by decide)]
  rfl
theorem lhs_coord1 (j : S128x16.Idx) (r : dot_S128x8192_S8192x16_S128x16_1_0_0_1_n_n.contr.Idx) :
    (dot_S128x8192_S8192x16_S128x16_1_0_0_1_n_n.lhsIdx j r 1).val = (r ⟨0, by decide⟩).val :=
  dot_S128x8192_S8192x16_S128x16_1_0_0_1_n_n.lhsIdx_val_of_single rfl j r
theorem rhs_coord0 (j : S128x16.Idx) (r : dot_S128x8192_S8192x16_S128x16_1_0_0_1_n_n.contr.Idx) :
    (dot_S128x8192_S8192x16_S128x16_1_0_0_1_n_n.rhsIdx j r 0).val = (r ⟨0, by decide⟩).val :=
  dot_S128x8192_S8192x16_S128x16_1_0_0_1_n_n.rhsIdx_val_of_single rfl j r
theorem rhs_coord1 (j : S128x16.Idx) (r : dot_S128x8192_S8192x16_S128x16_1_0_0_1_n_n.contr.Idx) :
    (dot_S128x8192_S8192x16_S128x16_1_0_0_1_n_n.rhsIdx j r 1).val = (j 1).val := by
  unfold DotDims.rhsIdx
  rw [dif_neg (show ¬(1 : Fin S8192x16.rank) ∈ dot_S128x8192_S8192x16_S128x16_1_0_0_1_n_n.rhsBatch by decide),
    dif_pos (show (1 : Fin S8192x16.rank) ∈ dot_S128x8192_S8192x16_S128x16_1_0_0_1_n_n.rhsNonContracting by decide)]
  rfl

/-- The weights times the features, contracted over the neighbours into a zero accumulator. -/
theorem num_apply (E : FVec Ideal S128x8192 .f32) (Fv : FVec Ideal S8192x16 .bf16) (p : Fin 128) (q : Fin 16) :
    matmul dot_S128x8192_S8192x16_S128x16_1_0_0_1_n_n none (truncf .bf16 E bitsLt_bf16_f32) Fv (constant S128x16 .f32 0x00000000#32) (ix2 p q)
      = ∑ m : Fin 8192, E (ix2 p m) * Fv (ix2 m q) := by
  refine (Ideal.matmul_constant_zero_apply dot_S128x8192_S8192x16_S128x16_1_0_0_1_n_n none (truncf .bf16 E bitsLt_bf16_f32) Fv (ix2 p q)).trans ?_
  rw [← Equiv.sum_comp (ValueIdx.contrEquiv1 dot_S128x8192_S8192x16_S128x16_1_0_0_1_n_n 8192 rfl rfl).symm]
  refine Finset.sum_congr rfl fun k _ => ?_
  have hk := ValueIdx.contrEquiv1_symm_val dot_S128x8192_S8192x16_S128x16_1_0_0_1_n_n 8192 rfl rfl k
  have el : dot_S128x8192_S8192x16_S128x16_1_0_0_1_n_n.lhsIdx (ix2 p q) ((ValueIdx.contrEquiv1 dot_S128x8192_S8192x16_S128x16_1_0_0_1_n_n 8192 rfl rfl).symm k) = ix2 p k :=
    funext fun a => Fin.ext (by
      match a with
      | ⟨0, _⟩ => exact lhs_coord0 _ _
      | ⟨1, _⟩ => exact (lhs_coord1 _ _).trans hk)
  have er : dot_S128x8192_S8192x16_S128x16_1_0_0_1_n_n.rhsIdx (ix2 p q) ((ValueIdx.contrEquiv1 dot_S128x8192_S8192x16_S128x16_1_0_0_1_n_n 8192 rfl rfl).symm k) = ix2 k q :=
    funext fun a => Fin.ext (by
      match a with
      | ⟨0, _⟩ => exact (rhs_coord0 _ _).trans hk
      | ⟨1, _⟩ => exact rhs_coord1 _ _)
  rw [el, er]
  rfl

/-- What the body stores at `(p, q)` of its output block. -/
theorem body_apply (p : Fin 128) (q : Fin 16) :
    k0_pay1 (k0_pay3 X Ya Yb Yc) (k0_pay4 X Ya Yb Yc) (k0_pay5 Fe) (k0_pay6 (F := Ideal)) (k0_pay7 X Ya Yb Yc) (k0_pay8 X Ya Yb Yc Fe) (ix2 p q)
      = bySquaringE (Ideal.ofBits .f32 0xC1480000#32) (Ideal.ofBits .f32 0x3E99999A#32) (Ideal.ofBits .f32 0x3ECCCCCD#32)
          (fun k => X (ix2 p k))
          (fun m => ![Ya (ix2 (0 : Fin 1) m), Yb (ix2 (0 : Fin 1) m), Yc (ix2 (0 : Fin 1) m)])
          (fun m => Fe (ix2 m q)) := by
  unfold k0_pay1 k0_pay7 k0_pay8 k0_pay6 k0_pay5
  dsimp only
  simp only [addf_apply, divf_apply, mulf_apply, broadcast_apply, scalar_ofBits, num_apply, shapeCast_self,
    pay2_apply, pay3_apply, pay4_apply, Ideal.ofBits_zero_f32]
  rw [den_apply (k0_pay2 X Ya Yb Yc) p q, den_apply (k0_pay3 X Ya Yb Yc) p q, den_apply (k0_pay4 X Ya Yb Yc) p q]
  simp only [pay2_apply, pay3_apply, pay4_apply]
  rfl

/-- The same at an index of the block given whole. -/
theorem body_at (j : S128x16.Idx) :
    k0_pay1 (k0_pay3 X Ya Yb Yc) (k0_pay4 X Ya Yb Yc) (k0_pay5 Fe) (k0_pay6 (F := Ideal)) (k0_pay7 X Ya Yb Yc) (k0_pay8 X Ya Yb Yc Fe) j
      = bySquaringE (Ideal.ofBits .f32 0xC1480000#32) (Ideal.ofBits .f32 0x3E99999A#32) (Ideal.ofBits .f32 0x3ECCCCCD#32)
          (fun k => X (ix2 (j 0) k))
          (fun m => ![Ya (ix2 (0 : Fin 1) m), Yb (ix2 (0 : Fin 1) m), Yc (ix2 (0 : Fin 1) m)])
          (fun m => Fe (ix2 m (j 1))) := by
  exact Eq.trans (congrArg (k0_pay1 (k0_pay3 X Ya Yb Yc) (k0_pay4 X Ya Yb Yc) (k0_pay5 Fe) (k0_pay6 (F := Ideal)) (k0_pay7 X Ya Yb Yc) (k0_pay8 X Ya Yb Yc Fe)) (eq_ix2 j))
    (body_apply X Ya Yb Yc Fe (j 0) (j 1))

end Cert.KernelIdeal.Body

end
-- ==== Proof.KernelValue.lean ====
/-
  From the body to the whole result. Grid point `t` handles query points `128 t … 128 t + 127`: its block of the
  first operand is those rows of the query array, the other two operands are staged whole, and its output block is
  those rows of the result. The operands are the arguments re-laid by the host (the leading unit axis dropped, the
  neighbours transposed, the features' format changed, which is the identity on extended reals), and the result is
  handed back under a leading unit axis. So entry `(0, n, q)` of the result is the squaring form for row `n` of the
  first argument, the rows of the second and column `q` of the third.
-/
import proofs.«127882_j66322884985175_2_alg».proof.Proof.Gen.KernelIdeal.Frame
import proofs.«127882_j66322884985175_2_alg».proof.Proof.KernelBody
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Idealize.ShloMosaic.ValueIdx Cert.Gauss

variable (m : (ℓ : Loc nD τ sig) → Buf (Elt Ideal) ℓ) (ρ : Dev nD → PrngReg)

/-- The three argument arrays on core `c`. -/
abbrev arg0 (c : Dev nD) : S1x8192x3.Idx → EReal := m ((c.tc : Thread nD τ).loc main_arg0)
abbrev arg1 (c : Dev nD) : S1x8192x3.Idx → EReal := m ((c.tc : Thread nD τ).loc main_arg1)
abbrev arg2 (c : Dev nD) : S1x8192x16.Idx → EReal := m ((c.tc : Thread nD τ).loc main_arg2)

/-- The result at query point `n` and feature column `q`. -/
def entry (c : Dev nD) (n : Fin 8192) (q : Fin 16) : EReal :=
  bySquaringE (Ideal.ofBits .f32 0xC1480000#32) (Ideal.ofBits .f32 0x3E99999A#32) (Ideal.ofBits .f32 0x3ECCCCCD#32)
    (fun k => arg0 m c (ix3 (0 : Fin 1) n k)) (fun mm k => arg1 m c (ix3 (0 : Fin 1) mm k)) (fun mm => arg2 m c (ix3 (0 : Fin 1) mm q))

/-- The kernel's output array, and the program's result. -/
def outArray (c : Dev nD) : S8192x16.Idx → EReal := fun i => entry m c (i 0) (i 1)
def result (c : Dev nD) : S1x8192x16.Idx → EReal := fun i => entry m c (i 1) (i 2)

/-! ## The operands as the host lays them out -/

theorem V_queries (c : Dev nD) :
    (V m c main_v0 : S8192x3.Idx → EReal) = shapeCast S8192x3 (arg0 m c) shapeCasts_S1x8192x3_S8192x3 := by
  show StableHlo.after hostOps0 (fun b => m (c, b)) (Proc.devRef .tc main_v0) = _
  after_results
  rfl

theorem V_neighbours (c : Dev nD) :
    (V m c main_v3 : S3x8192.Idx → EReal)
      = transpose S3x8192 [1, 0] (shapeCast S8192x3 (arg1 m c) shapeCasts_S1x8192x3_S8192x3) transposes_S8192x3_S3x8192_1_0 := by
  show StableHlo.after hostOps0 (fun b => m (c, b)) (Proc.devRef .tc main_v3) = _
  after_results
  rfl

theorem V_features (c : Dev nD) :
    (V m c main_v4 : S8192x16.Idx → EReal)
      = truncf .bf16 (shapeCast S8192x16 (arg2 m c) shapeCasts_S1x8192x16_S8192x16 : FVec Ideal S8192x16 .f32) bitsLt_bf16_f32 := by
  show StableHlo.after hostOps0 (fun b => m (c, b)) (Proc.devRef .tc main_v4) = _
  after_results
  rfl

theorem V_queries_apply (c : Dev nD) (n : Fin 8192) (k : Fin 3) :
    (V m c main_v0 : S8192x3.Idx → EReal) (ix2 n k) = arg0 m c (ix3 (0 : Fin 1) n k) := by
  rw [V_queries]; exact shapeCast_1ab_ab_apply _ _ n k

theorem V_neighbours_apply (c : Dev nD) (k : Fin 3) (mm : Fin 8192) :
    (V m c main_v3 : S3x8192.Idx → EReal) (ix2 k mm) = arg1 m c (ix3 (0 : Fin 1) mm k) := by
  rw [V_neighbours, transpose_ix2_apply]; exact shapeCast_1ab_ab_apply _ _ mm k

theorem V_features_apply (c : Dev nD) (mm : Fin 8192) (q : Fin 16) :
    (V m c main_v4 : S8192x16.Idx → EReal) (ix2 mm q) = arg2 m c (ix3 (0 : Fin 1) mm q) := by
  rw [V_features]; exact shapeCast_1ab_ab_apply _ _ mm q

/-! ## The blocks at a grid point -/

theorem hz : (![0, 0] : Fin 2 → Nat) = fun _ => 0 := funext fun a => by fin_cases a <;> rfl

/-- The printed index maps over the grid: the query and output windows move one block of rows per point, the other
    two stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem queries_blk (c : Dev nD) (t : Fin cfg0.N) (p : Fin 128) (k : Fin 3) (r : Fin 8192) (hr : r.val = t.val * 128 + p.val) :
    (iblk m c 0 t : S128x3.Idx → EReal) (ix2 p k) = arg0 m c (ix3 (0 : Fin 1) r k) := by
  obtain ⟨e00, e01, -⟩ := idx_facts t
  unfold iblk
  rw [View.read_apply]
  refine Eq.trans (congrArg (V m c main_v0 : S8192x3.Idx → EReal) (?_ : _ = ix2 r k)) (V_queries_apply m c r k)
  funext a; apply Fin.ext
  match a with
  | ⟨0, _⟩ => show win0_0.index t (0 : Fin 2) * 128 + 1 * p.val = r.val; omega
  | ⟨1, _⟩ => show win0_0.index t (1 : Fin 2) * 3 + 1 * k.val = k.val; omega

theorem neighbours_blk (c : Dev nD) (t : Fin cfg0.N) (k : Fin 3) (mm : Fin 8192) :
    (iblk m c 1 t : S3x8192.Idx → EReal) (ix2 k mm) = arg1 m c (ix3 (0 : Fin 1) mm k) := by
  obtain ⟨-, -, e10, e11, -⟩ := idx_facts t
  unfold iblk
  rw [View.read_apply]
  refine Eq.trans (congrArg (V m c main_v3 : S3x8192.Idx → EReal) (?_ : _ = ix2 k mm)) (V_neighbours_apply m c k mm)
  funext a; apply Fin.ext
  match a with
  | ⟨0, _⟩ => show win0_1.index t (0 : Fin 2) * 3 + 1 * k.val = k.val; omega
  | ⟨1, _⟩ => show win0_1.index t (1 : Fin 2) * 8192 + 1 * mm.val = mm.val; omega

theorem features_blk (c : Dev nD) (t : Fin cfg0.N) (mm : Fin 8192) (q : Fin 16) :
    (iblk m c 2 t : S8192x16.Idx → EReal) (ix2 mm q) = arg2 m c (ix3 (0 : Fin 1) mm q) := by
  obtain ⟨-, -, -, -, e20, e21, -⟩ := idx_facts t
  unfold iblk
  rw [View.read_apply]
  refine Eq.trans (congrArg (V m c main_v4 : S8192x16.Idx → EReal) (?_ : _ = ix2 mm q)) (V_features_apply m c mm q)
  funext a; apply Fin.ext
  match a with
  | ⟨0, _⟩ => show win0_2.index t (0 : Fin 2) * 8192 + 1 * mm.val = mm.val; omega
  | ⟨1, _⟩ => show win0_2.index t (1 : Fin 2) * 16 + 1 * q.val = q.val; omega

/-- A one-row load of the staged neighbours reads that row. -/
theorem row_ld (Y : Vec Ideal S3x8192 .f32) (k : Fin 3) (inb : ∀ a, (![k.val, 0] : Fin 2 → Nat) a + S1x8192.size a ≤ S3x8192.size a) (mm : Fin 8192) :
    View.ld Y (Rect.unit (s := S3x8192) ![k.val, 0] S1x8192.size inb) (ix2 (0 : Fin 1) mm) = Y (ix2 k mm) :=
  congrArg Y (funext fun a => Fin.ext (by
    match a with
    | ⟨0, _⟩ => show k.val + 1 * 0 = k.val; omega
    | ⟨1, _⟩ => show 0 + 1 * mm.val = mm.val; omega))

/-! ## What a grid point writes back, the cover, the array -/

theorem flushed_eq (c : Dev nD) (t : Fin cfg0.N) :
    (dats m 0 c).flushed 3 t = ((cfg0.win 3).blk t).view.read (Elt Ideal) (outArray m c) := by
  show (cfg0.win 3).cut (grid0.coords t) ((dats m 0 c).after 3 t) = _
  rw [after0_3]
  unfold out0_3
  rw [View.canon_unit_zero hz]
  simp only [View.ld_unit_zero (S := S128x3) hz, View.ld_unit_zero (S := S8192x16) hz]
  funext j
  have hp : (j 0).val < 128 := (j 0).isLt
  have hq : (j 1).val < 16 := (j 1).isLt
  have ht : t.val < 64 := Nat.lt_of_lt_of_eq t.isLt N_0
  obtain ⟨-, -, -, -, -, -, e30, e31⟩ := idx_facts t
  have hemb : ((cfg0.win 3).blk t).view.emb j = ix2 (⟨t.val * 128 + (j 0).val, by omega⟩ : Fin 8192) (⟨(j 1).val, hq⟩ : Fin 16) := by
    funext a; apply Fin.ext
    match a with
    | ⟨0, _⟩ => show win0_3.index t (0 : Fin 2) * 128 + 1 * (j 0).val = t.val * 128 + (j 0).val; omega
    | ⟨1, _⟩ => show win0_3.index t (1 : Fin 2) * 16 + 1 * (j 1).val = (j 1).val; omega
  refine (Body.body_at (iblk m c 0 t) (View.ld (iblk m c 1 t) r0_1) (View.ld (iblk m c 1 t) r0_2) (View.ld (iblk m c 1 t) r0_3) (iblk m c 2 t) j).trans ?_
  show _ = outArray m c (((cfg0.win 3).blk t).view.emb j)
  rw [hemb]
  unfold outArray entry
  refine congr (congr (congrArg _ (funext fun k => ?_)) (funext fun mm => funext fun k => ?_)) (funext fun mm => ?_)
  · exact queries_blk m c t (j 0) k _ rfl
  · match k with
    | ⟨0, _⟩ => exact (row_ld (iblk m c 1 t) 0 _ mm).trans (neighbours_blk m c t 0 mm)
    | ⟨1, _⟩ => exact (row_ld (iblk m c 1 t) 1 _ mm).trans (neighbours_blk m c t 1 mm)
    | ⟨2, _⟩ => exact (row_ld (iblk m c 1 t) 2 _ mm).trans (neighbours_blk m c t 2 mm)
  · exact features_blk m c t mm (j 1)

/-- An index of the output array is in point `t`'s block iff its coordinates are in the block's ranges. -/
theorem mem_blk (t : Fin cfg0.N) (i : S8192x16.Idx) :
    i ∈ ((cfg0.win 3).blk t).view.set ↔ ∀ a : Fin 2, win0_3.index t a * S128x16.size a ≤ (i a).val ∧ (i a).val < win0_3.index t a * S128x16.size a + S128x16.size a := by
  show i ∈ ((View.whole main_v5).slice (win0_3.rect t)).set ↔ _
  rw [View.set_slice_whole, Rect.mem_set_unit]
  exact Iff.rfl

/-- Row `r` of the output is written by grid point `r / 128`. -/
theorem cover (i : S8192x16.Idx) : ∃ t : Fin cfg0.N, (cfg0.win 3).flush t = true ∧ i ∈ ((cfg0.win 3).blk t).view.set := by
  have h0 : (i 0).val < 8192 := (i 0).isLt
  have h1 : (i 1).val < 16 := (i 1).isLt
  have hN : cfg0.N = 64 := N_0
  let t : Fin cfg0.N := ⟨(i 0).val / 128, by rw [hN]; omega⟩
  obtain ⟨-, -, -, -, -, -, e30, e31⟩ := idx_facts t
  have htv : t.val = (i 0).val / 128 := rfl
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 16 ≤ (i 1).val ∧ (i 1).val < win0_3.index t (1 : Fin 2) * 16 + 16; omega

/-- The output array after the run. -/
theorem final (c : Dev nD) : (dats m 0 c).arrAt 3 cfg0.N = outArray m c :=
  (dats m 0 c).arrAt_eq_of_cover 3 (outArray m c) (fun t _ => flushed_eq m c t) cover

/-! ## The host's last line, and the run -/

theorem result_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v5) = outArray m c from
    (Pipeline.withArrays_arr spec0 launch0.win.arr_inj c _ _ 3).trans (final m c)]
  funext i
  refine (broadcastInDim_apply _ bcast_S8192x16_S1x8192x16_1_2 (outArray m c) i (ix2 (i 1) (i 2)) (fun a => ?_)).trans rfl
  match a with
  | ⟨0, _⟩ => show (i 1).val = if (8192 : Nat) = 1 then 0 else (i 1).val; rw [if_neg (by decide)]
  | ⟨1, _⟩ => show (i 2).val = if (16 : Nat) = 1 then 0 else (i 2).val; rw [if_neg (by decide)]

/-- Every weakly fair execution of the idealized kernel terminates with the result array at `result` and the
    arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.Finite.lean ====
/-
  What the precondition says: every entry of the three argument arrays has absolute value below `+∞`, so it is
  neither infinity, that is, it is (the coercion of) a real number.
-/
import proofs.«127882_j66322884985175_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- The pattern of `+∞`. -/
theorem ofBits_inf : Ideal.ofBits .f32 0x7F800000#32 = ⊤ := by
  simp [Ideal.ofBits, Ideal.ieee]

/-- An extended real whose absolute value compares below `+∞` is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | top => exact absurd h' (by simp [Ideal.cmp])
  | coe r => exact ⟨r, rfl⟩

/-- Under the precondition every entry of every argument is a real. -/
theorem reals_of_pre (a0 a1 : FVec Ideal S1x8192x3 .f32) (a2 : FVec Ideal S1x8192x16 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨hA, hB⟩ := IntOp.andi_eq_one.1 h01
  refine ⟨fun i => real_of_abs_lt _ ?_, fun i => real_of_abs_lt _ ?_, fun i => real_of_abs_lt _ ?_⟩
  · exact Host.reduce_andi_all _ _ _ _ _ hA i
  · exact Host.reduce_andi_all _ _ _ _ _ hB i
  · exact Host.reduce_andi_all _ _ _ _ _ h2 i

end Cert.Pre_finite_inputs.Finite

end
-- ==== Proof.Bridge.lean ====
/-
  The two results are one array. The reference's entry `(0, n, q)` is the three-exponential form and the kernel's is
  the squaring form of the same rows and column; the precondition makes every entry of the arguments a real, and on
  reals the two forms are one number.
-/
import proofs.«127882_j66322884985175_2_alg».proof.Proof.RefRead
import proofs.«127882_j66322884985175_2_alg».proof.Proof.KernelValue
import proofs.«127882_j66322884985175_2_alg».proof.Proof.Finite

noncomputable section

open Idealize.ShloMosaic Idealize.ShloMosaic.TcCoe Idealize.SL.Sem Idealize.ShloMosaic.ValueIdx Cert.Gauss

namespace Cert.Bridge

/-- On finite arguments the three-exponential form and the squaring form of one query point and one feature column
    agree. -/
theorem forms_agree (x0 x1 : FVec Ideal Cert.Pre_finite_inputs.S1x8192x3 .f32) (x2 : FVec Ideal Cert.Pre_finite_inputs.S1x8192x16 .f32)
    (h : Cert.Pre_finite_inputs.fn (F := Ideal) x0 x1 x2 = fun _ => 1#1) (n : Fin 8192) (q : Fin 16) :
    byThreeExpsE (Ideal.ofBits .f32 0xC3480000#32) (Ideal.ofBits .f32 0xC2480000#32) (Ideal.ofBits .f32 0xC1480000#32)
        (Ideal.ofBits .f32 0x40000000#32) (Ideal.ofBits .f32 0x3E99999A#32) (Ideal.ofBits .f32 0x3ECCCCCD#32)
        (fun k => x0 (ix3 (0 : Fin 1) n k)) (fun mm k => x1 (ix3 (0 : Fin 1) mm k)) (fun mm => x2 (ix3 (0 : Fin 1) mm q))
      = bySquaringE (Ideal.ofBits .f32 0xC1480000#32) (Ideal.ofBits .f32 0x3E99999A#32) (Ideal.ofBits .f32 0x3ECCCCCD#32)
        (fun k => x0 (ix3 (0 : Fin 1) n k)) (fun mm k => x1 (ix3 (0 : Fin 1) mm k)) (fun mm => x2 (ix3 (0 : Fin 1) mm q)) := by
  obtain ⟨h0, h1, h2⟩ := Cert.Pre_finite_inputs.Finite.reals_of_pre x0 x1 x2 h
  choose r0 hr0 using h0
  choose r1 hr1 using h1
  choose r2 hr2 using h2
  haveI : Nonempty (Fin 8192) := ⟨0⟩
  rw [c_narrow, c_mid, c_wide, c_two, c_w3, c_w4]
  simp only [hr0, hr1, hr2]
  exact byThreeExpsE_eq w3 w4 (fun k => r0 (ix3 (0 : Fin 1) n k)) (fun mm k => r1 (ix3 (0 : Fin 1) mm k)) (fun mm => r2 (ix3 (0 : Fin 1) mm q))

/-- The reference's result of the kernel's arguments is the kernel's result. -/
theorem ref_eq_result (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    Cert.ReferenceIdeal.Read.val_main_v48 (F := Ideal) (Cert.KernelIdeal.Whole.arg0 m c) (Cert.KernelIdeal.Whole.arg1 m c) (Cert.KernelIdeal.Whole.arg2 m c)
      = Cert.KernelIdeal.Whole.result m c := by
  funext i
  obtain ⟨b, n, q, rfl⟩ : ∃ (b : Fin 1) (n : Fin 8192) (q : Fin 16), i = ix3 b n q := ⟨i 0, i 1, i 2, eq_ix3 i⟩
  obtain rfl : b = 0 := Subsingleton.elim _ _
  rw [Cert.ReferenceIdeal.RefValue.result_apply]
  exact forms_agree _ _ _ hpre n q

end Cert.Bridge

end
-- ==== Proof.lean ====
/-
  The certificate: the kernel computes, for every query point, a mixture of three Gaussian-weighted averages of the
  neighbours' features, and so does the reference; on finite inputs, read as extended reals, they are the same array.

  The kernel takes the squared distance as a sum of three squared differences, one exponential and its fourth and
  sixteenth powers by repeated squaring, and divides each weighted feature sum by its weight sum at the end
  (`Proof/KernelBody.lean`, `Proof/KernelValue.lean`). The reference expands the squared distance, clamps it at zero,
  takes three exponentials, normalises the weights before summing and adds the three terms in the other order
  (`Proof/RefRead.lean`). Over the reals these are one number (`Proof/GaussReal.lean`); the precondition makes every
  input a real (`Proof/Finite.lean`), where extended-real arithmetic is real arithmetic (`Proof/GaussLift.lean`);
  `Proof/Bridge.lean` puts the two together. The idealization rewrote nothing, so `preserves` is trivial; the frames
  are the generated ones, the reference's being its generated run with the result dropped.
-/
import proofs.«127882_j66322884985175_2_alg».proof.Defs
import proofs.«127882_j66322884985175_2_alg».proof.Proof.Gen.Kernel
import proofs.«127882_j66322884985175_2_alg».proof.Proof.Gen.Kernel.Skeleton
import proofs.«127882_j66322884985175_2_alg».proof.Proof.Gen.Kernel.Launch
import proofs.«127882_j66322884985175_2_alg».proof.Proof.Gen.Kernel.Points
import proofs.«127882_j66322884985175_2_alg».proof.Proof.Gen.Kernel.Frame
import proofs.«127882_j66322884985175_2_alg».proof.Proof.Gen.KernelIdeal
import proofs.«127882_j66322884985175_2_alg».proof.Proof.Gen.KernelIdeal.Skeleton
import proofs.«127882_j66322884985175_2_alg».proof.Proof.Gen.KernelIdeal.Launch
import proofs.«127882_j66322884985175_2_alg».proof.Proof.Gen.KernelIdeal.Points
import proofs.«127882_j66322884985175_2_alg».proof.Proof.Gen.KernelIdeal.Frame
import proofs.«127882_j66322884985175_2_alg».proof.Proof.Gen.ReferenceIdeal
import proofs.«127882_j66322884985175_2_alg».proof.Proof.Gen.Pre_finite_inputs
import proofs.«127882_j66322884985175_2_alg».proof.Proof.Gen.ReferenceIdeal.Run
import proofs.«127882_j66322884985175_2_alg».proof.Proof.Gen.ReferenceIdeal.Read
import proofs.«127882_j66322884985175_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the mixture of Gaussian-weighted feature
    averages in their result arrays: the kernel by its run read block by block, the reference by its run read
    operation by operation, the two forms equal because the arguments are finite. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2]
  exact Cert.Bridge.ref_eq_result m c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
